-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024x1024 : Shape := ⟨2, ![1024, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x8192x1024 .f32) (main_arg1 : FVec F S1024x1024 .f32) (main_arg2 : FVec F S1024 .f32) (main_arg3 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x8192x1024 : Shape := ⟨3, ![4, 8192, 1024]⟩
abbrev S1024x1024 : Shape := ⟨2, ![1024, 1024]⟩
abbrev S1024 : Shape := ⟨1, ![1024]⟩
abbrev S32768x1024 : Shape := ⟨2, ![32768, 1024]⟩
abbrev S_ : Shape := ⟨0, ![]⟩
abbrev S1x1024 : Shape := ⟨2, ![1, 1024]⟩
abbrev S2048x1024 : Shape := ⟨2, ![2048, 1024]⟩
abbrev S512x1024 : Shape := ⟨2, ![512, 1024]⟩
abbrev S1x512 : Shape := ⟨2, ![1, 512]⟩
abbrev S2048x512 : Shape := ⟨2, ![2048, 512]⟩

abbrev nBuf : Space → Nat
  | .hbm => 18
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S32768x1024, .f32⟩
  | .hbm, ⟨5, _⟩ => ⟨S_, .f32⟩
  | .hbm, ⟨6, _⟩ => ⟨S1024x1024, .f32⟩
  | .hbm, ⟨7, _⟩ => ⟨S1024x1024, .i1⟩
  | .hbm, ⟨8, _⟩ => ⟨S_, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S32768x1024, .f32⟩
  | .hbm, ⟨17, _⟩ => ⟨S4x8192x1024, .f32⟩
  | .local _ .vmem, ⟨0, _⟩ => ⟨S2048x1024, .f32⟩
  | .local _ .vmem, ⟨1, _⟩ => ⟨S2048x1024, .f32⟩
  | .local _ .vmem, ⟨2, _⟩ => ⟨S512x1024, .bf16⟩
  | .local _ .vmem, ⟨3, _⟩ => ⟨S512x1024, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x8192x1024_S32768x1024 : S4x8192x1024.ShapeCasts S32768x1024
  bcast_S_S1024x1024 : S_.BroadcastsInDim S1024x1024 (![] : Fin 0 → Fin S1024x1024.rank)
  bitsLt_bf16_f32 : FTy.bits .bf16 < FTy.bits .f32
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S32768x1024_S4x8192x1024 : S32768x1024.ShapeCasts S4x8192x1024
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S1024x1024.size a
  hwx0_1 : ∀ i : grid0.Coords, EltTy.bits .bf16 = 32 ∨ (Rect.block (s := S1024x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x1024.size a
  hwx0_3 : ∀ i : grid0.Coords, EltTy.bits .f32 = 32 ∨ (Rect.block (s := S1x1024) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S32768x1024.size a
  hwx0_4 : ∀ i : grid0.Coords, EltTy.bits .f32 = 32 ∨ (Rect.block (s := S32768x1024) S2048x512.size (cc0_transform_4 i) (hinb0_4 i)).WholeWords (EltTy.packing .f32)

variable [Facts₀]

def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024x1024, .f32⟩
  | .hbm, ⟨6, _⟩ => ⟨S1024x1024, .i1⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S4x8192x1024, .f32⟩
  | .hbm, ⟨15, _⟩ => ⟨S1x1x1024, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192x1024, .f32⟩
  | .hbm, ⟨28, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  bcast_S_S4x8192x1024 : S_.BroadcastsInDim S4x8192x1024 (![] : Fin 0 → Fin S4x8192x1024.rank)
  dot_S4x8192x1024_S1024x1024_S4x8192x1024_2_1_01_0_n_n_wf : DotDims.WF S4x8192x1024 S1024x1024 S4x8192x1024 [2] [1] [0, 1] [0] [] []

variable [Facts₀]

def dot_S4x8192x1024_S1024x1024_S4x8192x1024_2_1_01_0_n_n : DotDims S4x8192x1024 S1024x1024 S4x8192x1024 where
  lhsContracting := [2]
  rhsContracting := [1]
  lhsNonContracting := [0, 1]
  rhsNonContracting := [0]
  lhsBatch := []
  rhsBatch := []
  wf := dot_S4x8192x1024_S1024x1024_S4x8192x1024_2_1_01_0_n_n_wf

class Facts : Prop extends Facts₀ where

variable [Facts]
-- ==== Proof.Spec.lean ====
/-
  The layer both programs compute, as one function of the argument arrays, over the extended reals.

  A weight `w` is binarised to `+1` where `w ≥ 0` and to `-1` elsewhere (`sgn`). Row `(b, s)` of the input is
  contracted with row `o` of the binarised weights over the 1024 features, the result is multiplied by `scale o`,
  `bias o` is added and the sum is clamped to `[-100, 100]` (`clamp`).
  `layer` states this over the [4, 8192, 1024] input; `rowsTimesRows` is the same contraction over a [32768, 1024]
  matrix of rows against an already binarised [1024, 1024] matrix, with scale and bias as one-row matrices.

  The one law used between the two programs: for a one-bit word `b`, choosing `1` when the bit is set and `-1` otherwise
  is `b · 2 - 1` with the bit read as the number 0 or 1.
-/
import Idealize.ShloMosaic.PureOps.Ideal
import Idealize.ShloMosaic.PureOps.Ideal.Laws
import Idealize.ShloMosaic.Lib.ValueIdx

noncomputable section

open scoped BigOperators

namespace Cert.BinLinear

open Idealize.ShloMosaic Idealize.ShloMosaic.ValueIdx

/-- The binarised weight: `1` where `0 ≤ w`, `-1` elsewhere (the three numbers written as their f32 words). -/
def sgn (w : EReal) : EReal :=
  Scalar.select (Ideal.cmp .oge w (Ideal.ofBits .f32 0x00000000#32))
    (Ideal.ofBits .f32 0x3F800000#32) (Ideal.ofBits .f32 0xBF800000#32)

/-- Clamping to `[-100, 100]`: first from below, then from above. -/
def clamp (y : EReal) : EReal :=
  min (Ideal.ofBits .f32 0x42C80000#32) (max (Ideal.ofBits .f32 0xC2C80000#32) y)

/-- Rows of `X` against rows of `Wb`, scaled, shifted and clamped: entry `(r, o)`. -/
def rowsTimesRows (X : (⟨2, ![32768, 1024]⟩ : Shape).Idx → EReal) (Wb : (⟨2, ![1024, 1024]⟩ : Shape).Idx → EReal)
    (sc bi : (⟨2, ![1, 1024]⟩ : Shape).Idx → EReal) : (⟨2, ![32768, 1024]⟩ : Shape).Idx → EReal :=
  fun i => clamp ((∑ k : Fin 1024, X (ix2 (i 0 : Fin 32768) k) * Wb (ix2 (i 1 : Fin 1024) k))
    * sc (ix2 (0 : Fin 1) (i 1 : Fin 1024)) + bi (ix2 (0 : Fin 1) (i 1 : Fin 1024)))

/-- The layer over the batched input: entry `(b, s, o)`. -/
def layer (x : (⟨3, ![4, 8192, 1024]⟩ : Shape).Idx → EReal) (w : (⟨2, ![1024, 1024]⟩ : Shape).Idx → EReal)
    (sc bi : (⟨1, ![1024]⟩ : Shape).Idx → EReal) : (⟨3, ![4, 8192, 1024]⟩ : Shape).Idx → EReal :=
  fun i => clamp ((∑ k : Fin 1024, x (ix3 (i 0 : Fin 4) (i 1 : Fin 8192) k) * sgn (w (ix2 (i 2 : Fin 1024) k)))
    * sc (ix1 (i 2 : Fin 1024)) + bi (ix1 (i 2 : Fin 1024)))

/-- The f32 words of 1, -1 and 2 as extended reals. -/
theorem ofBits_one : Ideal.ofBits .f32 0x3F800000#32 = ((1 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- Choosing `1` or `-1` by a bit is `bit · 2 - 1`. -/
theorem select_eq_affine (b : BitVec 1) :
    Scalar.select b (Ideal.ofBits .f32 0x3F800000#32) (Ideal.ofBits .f32 0xBF800000#32)
      = ((b.toNat : ℝ) : EReal) * Ideal.ofBits .f32 0x40000000#32 - Ideal.ofBits .f32 0x3F800000#32 := by
  rw [ofBits_one, ofBits_neg_one, ofBits_two]
  rcases BitVec.eq_zero_or_eq_one b with h | h <;> subst h
  · rw [select_zero, ← EReal.coe_mul, ← EReal.coe_sub]; norm_num
  · rw [select_one, ← EReal.coe_mul, ← EReal.coe_sub]; norm_num

end Cert.BinLinear

end
-- ==== Proof.Payload.lean ====
/-
  What one grid point stores, entry by entry. The body multiplies its 2048 input rows by its 512 rows of binarised
  weights on the matrix unit into a zero accumulator, multiplies column `q` by the point's scale entry `q`, adds the
  point's bias entry `q` and clamps. Over the extended reals the matrix product at `(p, q)` is the sum over the 1024
  features of `row p` times `weight row q`; the one-row scale and bias blocks repeated down the 2048 rows read their
  entry `(0, q)`; the changes of float format and the casts of a block to its own shape are the identity.
-/
import proofs.«176042_j11218454577486_2_alg».proof.Proof.Gen.KernelIdeal.Skeleton
import proofs.«176042_j11218454577486_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.BinLinear

/-- The product's index maps, coordinate by coordinate: entry `(p, q)` with contracted feature `k` reads the left
    operand at `(p, k)` and the right operand at `(q, k)`. -/
theorem lhs_row (j : S2048x512.Idx) (kk : dot_S2048x1024_S512x1024_S2048x512_1_1_0_0_n_n.contr.Idx) :
    (dot_S2048x1024_S512x1024_S2048x512_1_1_0_0_n_n.lhsIdx j kk 0).val = (j 0).val := by
  unfold DotDims.lhsIdx
  rw [dif_neg (show ¬(0 : Fin S2048x1024.rank) ∈ dot_S2048x1024_S512x1024_S2048x512_1_1_0_0_n_n.lhsBatch by decide),
    dif_pos (show (0 : Fin S2048x1024.rank) ∈ dot_S2048x1024_S512x1024_S2048x512_1_1_0_0_n_n.lhsNonContracting by decide)]
  rfl
theorem lhs_feature (j : S2048x512.Idx) (kk : dot_S2048x1024_S512x1024_S2048x512_1_1_0_0_n_n.contr.Idx) :
    (dot_S2048x1024_S512x1024_S2048x512_1_1_0_0_n_n.lhsIdx j kk 1).val = (kk ⟨0, by decide⟩).val :=
  dot_S2048x1024_S512x1024_S2048x512_1_1_0_0_n_n.lhsIdx_val_of_single rfl j kk
theorem rhs_row (j : S2048x512.Idx) (kk : dot_S2048x1024_S512x1024_S2048x512_1_1_0_0_n_n.contr.Idx) :
    (dot_S2048x1024_S512x1024_S2048x512_1_1_0_0_n_n.rhsIdx j kk 0).val = (j 1).val := by
  unfold DotDims.rhsIdx
  rw [dif_neg (show ¬(0 : Fin S512x1024.rank) ∈ dot_S2048x1024_S512x1024_S2048x512_1_1_0_0_n_n.rhsBatch by decide),
    dif_pos (show (0 : Fin S512x1024.rank) ∈ dot_S2048x1024_S512x1024_S2048x512_1_1_0_0_n_n.rhsNonContracting by decide)]
  rfl
theorem rhs_feature (j : S2048x512.Idx) (kk : dot_S2048x1024_S512x1024_S2048x512_1_1_0_0_n_n.contr.Idx) :
    (dot_S2048x1024_S512x1024_S2048x512_1_1_0_0_n_n.rhsIdx j kk 1).val = (kk ⟨0, by decide⟩).val :=
  dot_S2048x1024_S512x1024_S2048x512_1_1_0_0_n_n.rhsIdx_val_of_single rfl j kk

/-- The matrix unit's product of rows by rows into the zero accumulator, at `(p, q)`: the sum over the contracted
    feature `k` of `a (p, k) · b (q, k)`. -/
theorem rowsByRows_apply (a : FVec Ideal S2048x1024 .bf16) (b : FVec Ideal S512x1024 .bf16) (p : Fin 2048) (q : Fin 512) :
    matmul dot_S2048x1024_S512x1024_S2048x512_1_1_0_0_n_n none a b (constant (F := Ideal) S2048x512 .f32 0x00000000#32) (ix2 p q)
      = ∑ k : Fin 1024, a (ix2 p k) * b (ix2 q k) := by
  show FloatOps.matmul _ none a b _ (ix2 p q) = _
  rw [Ideal.matmul_constant_zero_apply,
    ← Equiv.sum_comp (contrEquiv1 dot_S2048x1024_S512x1024_S2048x512_1_1_0_0_n_n 1024 rfl rfl).symm]
  refine Finset.sum_congr rfl fun k _ => ?_
  have hk := contrEquiv1_symm_val dot_S2048x1024_S512x1024_S2048x512_1_1_0_0_n_n 1024 rfl rfl k
  have el : dot_S2048x1024_S512x1024_S2048x512_1_1_0_0_n_n.lhsIdx (ix2 p q)
      ((contrEquiv1 dot_S2048x1024_S512x1024_S2048x512_1_1_0_0_n_n 1024 rfl rfl).symm k) = ix2 p k :=
    funext fun ax => Fin.ext (by
      match ax with
      | ⟨0, _⟩ => exact lhs_row _ _
      | ⟨1, _⟩ => exact (lhs_feature _ _).trans hk)
  have er : dot_S2048x1024_S512x1024_S2048x512_1_1_0_0_n_n.rhsIdx (ix2 p q)
      ((contrEquiv1 dot_S2048x1024_S512x1024_S2048x512_1_1_0_0_n_n 1024 rfl rfl).symm k) = ix2 q k :=
    funext fun ax => Fin.ext (by
      match ax with
      | ⟨0, _⟩ => exact rhs_row _ _
      | ⟨1, _⟩ => exact (rhs_feature _ _).trans hk)
  rw [el, er]

/-- A one-row block repeated down the 2048 rows reads, at `(p, q)`, its entry `(0, q)`. -/
theorem rowRepeated_apply (v : FVec Ideal S1x512 .f32) (p : Fin 2048) (q : Fin 512) :
    broadcastTo S2048x512 v broadcasts_S1x512_S2048x512 (ix2 p q) = v (ix2 (0 : Fin 1) q) := by
  refine broadcastTo_apply v broadcasts_S1x512_S2048x512 (ix2 p q) (ix2 (0 : Fin 1) q) fun ax => ?_
  match ax with
  | ⟨0, _⟩ => rfl
  | ⟨1, _⟩ => rfl

/-- THE STORED BLOCK at `(p, q)`: the clamped, scaled and shifted product of input row `p` with weight row `q`. -/
theorem pay_apply (x0 : Vec Ideal S2048x1024 .f32) (x1 : Vec Ideal S512x1024 .bf16) (x2 x3 : Vec Ideal S1x512 .f32)
    (p : Fin 2048) (q : Fin 512) :
    k0_pay1 (F := Ideal) x0 x1 x2 x3 (ix2 p q)
      = clamp ((∑ k : Fin 1024, x0 (ix2 p k) * x1 (ix2 q k)) * x2 (ix2 (0 : Fin 1) q) + x3 (ix2 (0 : Fin 1) q)) := by
  unfold k0_pay1
  rw [shapeCast_self, shapeCast_self, shapeCast_self, shapeCast_self]
  show min (Ideal.ofBits .f32 0x42C80000#32) (max (Ideal.ofBits .f32 0xC2C80000#32)
      (matmul dot_S2048x1024_S512x1024_S2048x512_1_1_0_0_n_n none (x0 : FVec Ideal S2048x1024 .bf16) (x1 : FVec Ideal S512x1024 .bf16)
          (constant (F := Ideal) S2048x512 .f32 0x00000000#32) (ix2 p q)
        * broadcastTo S2048x512 (x2 : FVec Ideal S1x512 .f32) broadcasts_S1x512_S2048x512 (ix2 p q)
        + broadcastTo S2048x512 (x3 : FVec Ideal S1x512 .f32) broadcasts_S1x512_S2048x512 (ix2 p q))) = _
  rw [rowsByRows_apply, rowRepeated_apply, rowRepeated_apply]
  rfl

end Cert.KernelIdeal.Hand

end
-- ==== Proof.Blocks.lean ====
/-
  From the blocks the grid points write to the whole product array.

  The grid has 16 × 2 points; point `(a, b)` works on input rows `2048·a … 2048·a + 2047`, on binarised weight rows
  `512·b … 512·b + 511` and on entries `512·b …` of the one-row scale and bias, and writes block `(a, b)` of the
  [32768, 1024] product array. So entry `(p, q)` of what a point writes is entry `(2048·a + p, 512·b + q)` of
  `rowsTimesRows` of the four arrays the region finds: the rows and entries the block reads are exactly the rows and
  entries that array entry depends on. The 32 blocks tile the array, hence after the run the array is `rowsTimesRows`.
-/
import proofs.«176042_j11218454577486_2_alg».proof.Proof.Gen.KernelIdeal.Frame
import proofs.«176042_j11218454577486_2_alg».proof.Proof.Payload
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.BinLinear
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- One stored entry against one array entry: if the block's input row `p` is row `r` of `X`, its weight row `q` is
    row `o` of `Wb`, and its scale and bias entries `q` are entries `o` of `sc` and `bi`, then the stored entry
    `(p, q)` is entry `(r, o)` of `rowsTimesRows X Wb sc bi`. -/
theorem stored_eq (X : S32768x1024.Idx → EReal) (Wb : S1024x1024.Idx → EReal) (sc bi : S1x1024.Idx → EReal)
    (x0 : Vec Ideal S2048x1024 .f32) (x1 : Vec Ideal S512x1024 .bf16) (x2 x3 : Vec Ideal S1x512 .f32)
    (p : Fin 2048) (q : Fin 512) (r : Fin 32768) (o : Fin 1024)
    (h0 : ∀ k : Fin 1024, x0 (ix2 p k) = X (ix2 r k))
    (h1 : ∀ k : Fin 1024, x1 (ix2 q k) = Wb (ix2 o k))
    (h2 : x2 (ix2 (0 : Fin 1) q) = sc (ix2 (0 : Fin 1) o))
    (h3 : x3 (ix2 (0 : Fin 1) q) = bi (ix2 (0 : Fin 1) o)) :
    k0_pay1 (F := Ideal) x0 x1 x2 x3 (ix2 p q) = rowsTimesRows X Wb sc bi (ix2 r o) := by
  rw [pay_apply]
  unfold rowsTimesRows
  rw [h2, h3]
  refine congrArg (fun s => clamp (s * sc (ix2 (0 : Fin 1) o) + bi (ix2 (0 : Fin 1) o))) ?_
  exact Finset.sum_congr rfl fun k _ => by rw [h0, h1]

/-- The printed index maps over the 32 points: the input rows move with the output's row block, the weights, scale and
    bias with its column block. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) ≤ 15 ∧ win0_4.index t (1 : Fin 2) ≤ 1 :=
  (by decide +kernel : ∀ t : Fin grid0.N, _)

/-- Every block `(a, b)` of the 16 × 2 is some point's. -/
theorem block_onto : ∀ (a : Fin 16) (b : Fin 2), ∃ t : Fin cfg0.N, win0_4.index t = ![a.val, b.val] :=
  (by decide +kernel : ∀ (a : Fin 16) (b : Fin 2), ∃ t : Fin grid0.N, win0_4.index t = ![a.val, b.val])

/-- The input window's block at a point: rows of the row matrix. -/
theorem rows_block (c : Dev nD) (t : Fin cfg0.N) (x : S2048x1024.Idx) (i : S32768x1024.Idx)
    (e0 : (i 0).val = win0_0.index t (0 : Fin 2) * 2048 + (x 0).val)
    (e1 : (i 1).val = win0_0.index t (1 : Fin 2) * 1024 + (x 1).val) :
    (iblk m c 0 t : Vec Ideal S2048x1024 .f32) x = (V m c main_v0 : S32768x1024.Idx → EReal) i := by
  unfold iblk
  rw [View.read_apply]
  show V m c main_v0 _ = V m c main_v0 _
  refine congrArg (V m c main_v0) (funext fun a => Fin.ext ?_)
  match a with
  | ⟨0, _⟩ => show win0_0.index t (0 : Fin 2) * 2048 + 1 * (x 0).val = (i 0).val; omega
  | ⟨1, _⟩ => show win0_0.index t (1 : Fin 2) * 1024 + 1 * (x 1).val = (i 1).val; omega

/-- The weight window's block at a point: rows of the binarised weight matrix. -/
theorem weights_block (c : Dev nD) (t : Fin cfg0.N) (x : S512x1024.Idx) (i : S1024x1024.Idx)
    (e0 : (i 0).val = win0_1.index t (0 : Fin 2) * 512 + (x 0).val)
    (e1 : (i 1).val = win0_1.index t (1 : Fin 2) * 1024 + (x 1).val) :
    (iblk m c 1 t : Vec Ideal S512x1024 .bf16) x = (V m c main_v4 : S1024x1024.Idx → EReal) i := by
  unfold iblk
  rw [View.read_apply]
  show V m c main_v4 _ = V m c main_v4 _
  refine congrArg (V m c main_v4) (funext fun a => Fin.ext ?_)
  match a with
  | ⟨0, _⟩ => show win0_1.index t (0 : Fin 2) * 512 + 1 * (x 0).val = (i 0).val; omega
  | ⟨1, _⟩ => show win0_1.index t (1 : Fin 2) * 1024 + 1 * (x 1).val = (i 1).val; omega

/-- The scale window's block at a point: entries of the one-row scale. -/
theorem scale_block (c : Dev nD) (t : Fin cfg0.N) (x : S1x512.Idx) (i : S1x1024.Idx)
    (e0 : (i 0).val = win0_2.index t (0 : Fin 2) * 1 + (x 0).val)
    (e1 : (i 1).val = win0_2.index t (1 : Fin 2) * 512 + (x 1).val) :
    (iblk m c 2 t : Vec Ideal S1x512 .f32) x = (V m c main_v5 : S1x1024.Idx → EReal) i := by
  unfold iblk
  rw [View.read_apply]
  show V m c main_v5 _ = V m c main_v5 _
  refine congrArg (V m c main_v5) (funext fun a => Fin.ext ?_)
  match a with
  | ⟨0, _⟩ => show win0_2.index t (0 : Fin 2) * 1 + 1 * (x 0).val = (i 0).val; omega
  | ⟨1, _⟩ => show win0_2.index t (1 : Fin 2) * 512 + 1 * (x 1).val = (i 1).val; omega

/-- The bias window's block at a point: entries of the one-row bias. -/
theorem bias_block (c : Dev nD) (t : Fin cfg0.N) (x : S1x512.Idx) (i : S1x1024.Idx)
    (e0 : (i 0).val = win0_3.index t (0 : Fin 2) * 1 + (x 0).val)
    (e1 : (i 1).val = win0_3.index t (1 : Fin 2) * 512 + (x 1).val) :
    (iblk m c 3 t : Vec Ideal S1x512 .f32) x = (V m c main_v6 : S1x1024.Idx → EReal) i := by
  unfold iblk
  rw [View.read_apply]
  show V m c main_v6 _ = V m c main_v6 _
  refine congrArg (V m c main_v6) (funext fun a => Fin.ext ?_)
  match a with
  | ⟨0, _⟩ => show win0_3.index t (0 : Fin 2) * 1 + 1 * (x 0).val = (i 0).val; omega
  | ⟨1, _⟩ => show win0_3.index t (1 : Fin 2) * 512 + 1 * (x 1).val = (i 1).val; omega

/-- WHAT POINT `t` WRITES BACK is block `t` of `rowsTimesRows` of the arrays the region finds. -/
theorem flushed_eq (c : Dev nD) (t : Fin cfg0.N) :
    (dats m 0 c).flushed 4 t = ((cfg0.win 4).blk t).view.read (Elt Ideal)
      (rowsTimesRows (V m c main_v0) (V m c main_v4) (V m c main_v5) (V m c main_v6)) := by
  show (cfg0.win 4).cut (grid0.coords t) ((dats m 0 c).after 4 t) = _
  rw [after0_4]
  unfold out0_4
  rw [View.canon_unit_zero zeros]
  simp only [View.ld_unit_zero (S := S2048x1024) zeros, View.ld_unit_zero (S := S512x1024) zeros,
    View.ld_unit_zero (S := S1x512) zeros]
  obtain ⟨a0, a1, b0, b1, s0, s1, d0, d1, u0, u1⟩ := block_indices t
  funext j
  obtain ⟨p, q, rfl⟩ : ∃ (p : Fin 2048) (q : Fin 512), j = ix2 p q := ⟨j 0, j 1, eq_ix2 j⟩
  have hp : p.val < 2048 := p.isLt
  have hq : q.val < 512 := q.isLt
  have he : ((cfg0.win 4).blk t).view.emb (ix2 p q)
      = ix2 (⟨win0_4.index t (0 : Fin 2) * 2048 + p.val, by omega⟩ : Fin 32768)
          (⟨win0_4.index t (1 : Fin 2) * 512 + q.val, by omega⟩ : Fin 1024) :=
    funext fun a => Fin.ext (by
      match a with
      | ⟨0, _⟩ => show win0_4.index t (0 : Fin 2) * 2048 + 1 * p.val = win0_4.index t (0 : Fin 2) * 2048 + p.val; omega
      | ⟨1, _⟩ => show win0_4.index t (1 : Fin 2) * 512 + 1 * q.val = win0_4.index t (1 : Fin 2) * 512 + q.val; omega)
  show k0_pay1 (F := Ideal) (iblk m c 0 t) (iblk m c 1 t) (iblk m c 2 t) (iblk m c 3 t) (ix2 p q)
    = rowsTimesRows (V m c main_v0) (V m c main_v4) (V m c main_v5) (V m c main_v6) (((cfg0.win 4).blk t).view.emb (ix2 p q))
  rw [he]
  refine stored_eq (V m c main_v0) (V m c main_v4) (V m c main_v5) (V m c main_v6)
    (iblk m c 0 t) (iblk m c 1 t) (iblk m c 2 t) (iblk m c 3 t) p q _ _ ?_ ?_ ?_ ?_
  · intro k
    refine rows_block m c t (ix2 p k) (ix2 _ k) ?_ ?_
    · show win0_4.index t (0 : Fin 2) * 2048 + p.val = win0_0.index t (0 : Fin 2) * 2048 + p.val
      omega
    · show k.val = win0_0.index t (1 : Fin 2) * 1024 + k.val
      omega
  · intro k
    refine weights_block m c t (ix2 q k) (ix2 _ k) ?_ ?_
    · show win0_4.index t (1 : Fin 2) * 512 + q.val = win0_1.index t (0 : Fin 2) * 512 + q.val
      omega
    · show k.val = win0_1.index t (1 : Fin 2) * 1024 + k.val
      omega
  · refine scale_block m c t (ix2 (0 : Fin 1) q) (ix2 (0 : Fin 1) _) ?_ ?_
    · show (0 : Nat) = win0_2.index t (0 : Fin 2) * 1 + 0
      omega
    · show win0_4.index t (1 : Fin 2) * 512 + q.val = win0_2.index t (1 : Fin 2) * 512 + q.val
      omega
  · refine bias_block m c t (ix2 (0 : Fin 1) q) (ix2 (0 : Fin 1) _) ?_ ?_
    · show (0 : Nat) = win0_3.index t (0 : Fin 2) * 1 + 0
      omega
    · show win0_4.index t (1 : Fin 2) * 512 + q.val = win0_3.index t (1 : Fin 2) * 512 + q.val
      omega

/-- An entry of the product array is in point `t`'s block iff each coordinate is in the block's range on its axis. -/
theorem mem_block (t : Fin cfg0.N) (i : S32768x1024.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v7).slice (win0_4.rect t)).set ↔ _
  rw [View.set_slice_whole, Rect.mem_set_unit]
  exact Iff.rfl

/-- Every entry `(r, o)` is in the block of the point at `(r / 2048, o / 512)`, and every point writes back. -/
theorem covered (i : S32768x1024.Idx) :
    ∃ t : Fin cfg0.N, (cfg0.win 4).flush t = true ∧ i ∈ ((cfg0.win 4).blk t).view.set := by
  have hi0 : (i 0).val < 32768 := (i 0).isLt
  have hi1 : (i 1).val < 1024 := (i 1).isLt
  obtain ⟨t, ht⟩ := block_onto ⟨(i 0).val / 2048, by omega⟩ ⟨(i 1).val / 512, by omega⟩
  have q0 : win0_4.index t (0 : Fin 2) = (i 0).val / 2048 := congrFun ht 0
  have q1 : win0_4.index t (1 : Fin 2) = (i 1).val / 512 := congrFun ht 1
  refine ⟨t, flush0_4 t, ?_⟩
  rw [mem_block]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 512 ≤ (i 1).val ∧ (i 1).val < win0_4.index t (1 : Fin 2) * 512 + 512
    omega

/-- THE PRODUCT ARRAY after the run. -/
theorem product_final (c : Dev nD) :
    (dats m 0 c).arrAt 4 cfg0.N = rowsTimesRows (V m c main_v0) (V m c main_v4) (V m c main_v5) (V m c main_v6) :=
  (dats m 0 c).arrAt_eq_of_cover 4 _ (fun t _ => flushed_eq m c t) covered

end Cert.KernelIdeal.Hand

end
-- ==== Proof.KernelValue.lean ====
/-
  The kernel program's result as a function of its four arguments.

  Before the region the host reshapes the [4, 8192, 1024] input to [32768, 1024] rows (row `8192·b + s` is row
  `(b, s)`), binarises the weights entry by entry (`1` where `w ≥ 0`, `-1` elsewhere, the change of float format the
  identity), and sets scale and bias as one-row matrices. After the region it reshapes the [32768, 1024] product back
  to [4, 8192, 1024]. Reading these operations at an index and the product array as `rowsTimesRows`, the result's entry
  `(b, s, o)` is `layer` of the arguments there; so the program's run ends with the result array at `layer`.
-/
import proofs.«176042_j11218454577486_2_alg».proof.Proof.Blocks
import Idealize.ShloMosaic.Lib.StableHlo.Run

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.BinLinear Idealize.ShloMosaic.StableHlo
open Idealize.ShloMosaic.Pipeline (Dat)

variable (m : (ℓ : Loc nD τ sig) → Buf (Elt Ideal) ℓ) (ρ : Dev nD → PrngReg)

/-- The host's binarisation of a weight matrix: compare with zero, choose `1` or `-1`, change the float format. -/
def binarised (w : FVec Ideal S1024x1024 .f32) : FVec Ideal S1024x1024 .bf16 :=
  truncf .bf16 (select (cmpf .oge w
        (broadcastInDim S1024x1024 ![] bcast_S_S1024x1024 (constant (F := Ideal) S_ .f32 0x00000000#32)))
      (broadcastInDim S1024x1024 ![] bcast_S_S1024x1024 (constant (F := Ideal) S_ .f32 0x3F800000#32))
      (broadcastInDim S1024x1024 ![] bcast_S_S1024x1024 (constant (F := Ideal) S_ .f32 0xBF800000#32)) : FVec Ideal S1024x1024 .f32)
    bitsLt_bf16_f32

/-! ## The arrays the region finds, as operations of the arguments -/

/-- The row matrix is the input reshaped. -/
theorem rows_found (c : Dev nD) : (V m c main_v0 : S32768x1024.Idx → EReal)
    = shapeCast S32768x1024 (m ((c : Thread nD τ).loc main_arg0) : S4x8192x1024.Idx → EReal) shapeCasts_S4x8192x1024_S32768x1024 := by
  dsimp only [V, V0]
  simp only [hostOps0, hostOps0_1, hostOps0_2, List.flatten_cons, List.flatten_nil, List.append_nil, List.cons_append, List.nil_append]
  after_results
  rfl

/-- The weight matrix the region finds is the weights binarised by comparison with zero. -/
theorem weights_found (c : Dev nD) : (V m c main_v4 : S1024x1024.Idx → EReal)
    = binarised (m ((c : Thread nD τ).loc main_arg1) : FVec Ideal S1024x1024 .f32) := by
  unfold binarised
  dsimp only [V, V0]
  simp only [hostOps0, hostOps0_1, hostOps0_2, List.flatten_cons, List.flatten_nil, List.append_nil, List.cons_append, List.nil_append]
  after_results
  rfl

/-- The one-row scale is the scale vector reshaped. -/
theorem scale_found (c : Dev nD) : (V m c main_v5 : S1x1024.Idx → EReal)
    = shapeCast S1x1024 (m ((c : Thread nD τ).loc main_arg2) : S1024.Idx → EReal) shapeCasts_S1024_S1x1024 := by
  dsimp only [V, V0]
  simp only [hostOps0, hostOps0_1, hostOps0_2, List.flatten_cons, List.flatten_nil, List.append_nil, List.cons_append, List.nil_append]
  after_results
  rfl

/-- The one-row bias is the bias vector reshaped. -/
theorem bias_found (c : Dev nD) : (V m c main_v6 : S1x1024.Idx → EReal)
    = shapeCast S1x1024 (m ((c : Thread nD τ).loc main_arg3) : S1024.Idx → EReal) shapeCasts_S1024_S1x1024 := by
  dsimp only [V, V0]
  simp only [hostOps0, hostOps0_1, hostOps0_2, List.flatten_cons, List.flatten_nil, List.append_nil, List.cons_append, List.nil_append]
  after_results
  rfl

/-- The program's result is the product array reshaped. -/
theorem result_found (c : Dev nD) :
    (Pipeline.afterTail₀ cfgs (dats m) 0 (V0 m) [hostOps1] c main_v8 : S4x8192x1024.Idx → EReal)
      = shapeCast S4x8192x1024 ((dats m 0 c).arrAt 4 cfg0.N : S32768x1024.Idx → EReal) shapeCasts_S32768x1024_S4x8192x1024 := by
  unfold Pipeline.afterTail₀
  show StableHlo.after hostOps1 _ (Proc.devRef .tc main_v8) = _
  after_results
  exact congrArg (fun A : S32768x1024.Idx → EReal => shapeCast S4x8192x1024 A shapeCasts_S32768x1024_S4x8192x1024)
    (Pipeline.withArrays_arr spec0 winFacts0.arr_inj c (V0 m c) (fun w => (dats m 0 c).arrAt w cfg0.N) 4)

/-! ## Those operations read at an index -/

/-- Row `8192·b + s` of the reshaped input is row `(b, s)` of the input. -/
theorem rows_at (x : S4x8192x1024.Idx → EReal) (b : Fin 4) (s : Fin 8192) (k : Fin 1024) (g : Fin 32768)
    (hg : g.val = b.val * 8192 + s.val) :
    shapeCast S32768x1024 x shapeCasts_S4x8192x1024_S32768x1024 (ix2 g k) = x (ix3 b s k) :=
  shapeCast_apply x shapeCasts_S4x8192x1024_S32768x1024 (ix2 g k) (ix3 b s k) (by
    rw [Shape.rowMajor_val_three, Shape.rowMajor_val_two]
    show (b.val * 8192 + s.val) * 1024 + k.val = g.val * 1024 + k.val
    rw [hg])

/-- Entry `(b, s, o)` of the product reshaped back is entry `(8192·b + s, o)` of the product. -/
theorem result_at (A : S32768x1024.Idx → EReal) (b : Fin 4) (s : Fin 8192) (o : Fin 1024) (g : Fin 32768)
    (hg : g.val = b.val * 8192 + s.val) :
    shapeCast S4x8192x1024 A shapeCasts_S32768x1024_S4x8192x1024 (ix3 b s o) = A (ix2 g o) :=
  shapeCast_apply A shapeCasts_S32768x1024_S4x8192x1024 (ix3 b s o) (ix2 g o) (by
    rw [Shape.rowMajor_val_three, Shape.rowMajor_val_two]
    show g.val * 1024 + o.val = (b.val * 8192 + s.val) * 1024 + o.val
    rw [hg])

/-- Entry `(0, o)` of a vector set as a one-row matrix is entry `o` of the vector. -/
theorem oneRow_at (v : S1024.Idx → EReal) (o : Fin 1024) :
    shapeCast S1x1024 v shapeCasts_S1024_S1x1024 (ix2 (0 : Fin 1) o) = v (ix1 o) :=
  shapeCast_apply v shapeCasts_S1024_S1x1024 (ix2 (0 : Fin 1) o) (ix1 o) (by
    rw [Shape.rowMajor_val_one, Shape.rowMajor_val_two]
    show o.val = 0 * 1024 + o.val
    omega)

/-- A scalar broadcast to the weight matrix's shape reads, everywhere, that scalar. -/
theorem splat_at (x : S_.Idx → EReal) (j : S1024x1024.Idx) :
    broadcastInDim S1024x1024 ![] bcast_S_S1024x1024 x j = x ix0 :=
  broadcastInDim_apply _ bcast_S_S1024x1024 x j ix0 (fun a => a.elim0)

/-- The binarised weights at an entry: `sgn` of the weight there. -/
theorem binarised_at (w : FVec Ideal S1024x1024 .f32) (j : S1024x1024.Idx) : binarised w j = sgn (w j) := by
  show Scalar.select (FloatOps.cmpf .oge (w j) (broadcastInDim S1024x1024 ![] bcast_S_S1024x1024 (constant (F := Ideal) S_ .f32 0x00000000#32) j))
      (broadcastInDim S1024x1024 ![] bcast_S_S1024x1024 (constant (F := Ideal) S_ .f32 0x3F800000#32) j)
      (broadcastInDim S1024x1024 ![] bcast_S_S1024x1024 (constant (F := Ideal) S_ .f32 0xBF800000#32) j) = _
  rw [splat_at, splat_at, splat_at]
  rfl

/-- The product of the reshaped and binarised arguments, reshaped back, is the layer. -/
theorem layer_of_parts (x0 : S4x8192x1024.Idx → EReal) (w : FVec Ideal S1024x1024 .f32) (x2 x3 : S1024.Idx → EReal) :
    shapeCast S4x8192x1024 (rowsTimesRows (shapeCast S32768x1024 x0 shapeCasts_S4x8192x1024_S32768x1024) (binarised w)
        (shapeCast S1x1024 x2 shapeCasts_S1024_S1x1024) (shapeCast S1x1024 x3 shapeCasts_S1024_S1x1024))
      shapeCasts_S32768x1024_S4x8192x1024 = layer x0 w x2 x3 := by
  funext i
  obtain ⟨b, s, o, rfl⟩ : ∃ (b : Fin 4) (s : Fin 8192) (o : Fin 1024), i = ix3 b s o := ⟨i 0, i 1, i 2, eq_ix3 i⟩
  have hb : b.val < 4 := b.isLt
  have hs : s.val < 8192 := s.isLt
  rw [result_at _ b s o ⟨b.val * 8192 + s.val, by omega⟩ rfl]
  unfold rowsTimesRows layer
  show clamp ((∑ k : Fin 1024, shapeCast S32768x1024 x0 shapeCasts_S4x8192x1024_S32768x1024 (ix2 (⟨b.val * 8192 + s.val, by omega⟩ : Fin 32768) k)
        * binarised w (ix2 o k))
      * shapeCast S1x1024 x2 shapeCasts_S1024_S1x1024 (ix2 (0 : Fin 1) o) + shapeCast S1x1024 x3 shapeCasts_S1024_S1x1024 (ix2 (0 : Fin 1) o))
    = clamp ((∑ k : Fin 1024, x0 (ix3 b s k) * sgn (w (ix2 o k))) * x2 (ix1 o) + x3 (ix1 o))
  rw [oneRow_at, oneRow_at]
  refine congrArg (fun t : EReal => clamp (t * x2 (ix1 o) + x3 (ix1 o))) ?_
  refine Finset.sum_congr rfl fun k _ => ?_
  rw [rows_at x0 b s k _ rfl, binarised_at]

/-! ## The result array, and the run -/

/-- THE RESULT: entry `(b, s, o)` is the layer of the arguments. -/
theorem result_eq (c : Dev nD) :
    (Pipeline.afterTail₀ cfgs (dats m) 0 (V0 m) [hostOps1] c main_v8 : S4x8192x1024.Idx → EReal)
      = layer (m ((c : Thread nD τ).loc main_arg0)) (m ((c : Thread nD τ).loc main_arg1))
          (m ((c : Thread nD τ).loc main_arg2)) (m ((c : Thread nD τ).loc main_arg3)) := by
  rw [result_found, product_final, rows_found, weights_found, scale_found, bias_found]
  exact layer_of_parts _ _ _ _

/-- THE RUN of the kernel program: the result array ends at `layer` of the arguments, which end unchanged. -/
theorem run : θ_run defs (onTc (τ := τ) (main (F := Ideal))) ⟨m, fun _ => 0, ρ⟩ fun r => ∀ c : Dev nD,
      r.2.mem ((c.tc : Thread nD τ).loc main_v8)
        = layer (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v8 (Pipeline.mem_restRefs_of main_v8 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Hand

end
-- ==== Proof.RefValue.lean ====
/-
  The reference program's result is `layer` of its arguments.

  Read one operation at a time at an entry `(b, s, o)`: the contraction over the last axis of the input with axis 1 of
  the weight matrix is the sum over the 1024 features of `x (b, s, k)` times the binarised weight at `(o, k)`; scale and
  bias, broadcast along the two leading axes, read their entry `o`; the clamp is the same minimum of a maximum. The
  reference binarises a weight as `bit · 2 - 1`, the bit of `w ≥ 0` read as 0 or 1, which is `sgn w`.
-/
import proofs.«176042_j11218454577486_2_alg».proof.Proof.Gen.ReferenceIdeal.Read
import proofs.«176042_j11218454577486_2_alg».proof.Proof.Spec

noncomputable section

open scoped BigOperators

namespace Cert.ReferenceIdeal.Hand

open Cert.ReferenceIdeal Cert.ReferenceIdeal.Gen Cert.ReferenceIdeal.Read Idealize.ShloMosaic Idealize.ShloMosaic.ValueIdx Cert.BinLinear

/-- The reference's binarised weight is `sgn`. -/
theorem affine_eq_sgn (w : EReal) :
    FloatOps.subf (φ := .f32) (FloatOps.mulf (φ := .f32) (FloatOps.uitofp (F := Ideal) .f32 (FloatOps.cmpf (F := Ideal) (φ := .f32) .oge w
        (FloatOps.ofBits (F := Ideal) .f32 0x00000000#32))) (FloatOps.ofBits (F := Ideal) .f32 0x40000000#32))
      (FloatOps.ofBits (F := Ideal) .f32 0x3F800000#32) = sgn w := by
  unfold sgn
  rw [select_eq_affine]
  rfl

/-- THE REFERENCE'S RESULT is the layer of its arguments. -/
theorem reference_eq (x0 : S4x8192x1024.Idx → EReal) (x1 : S1024x1024.Idx → EReal) (x2 x3 : S1024.Idx → EReal) :
    val_main_v14 (F := Ideal) x0 x1 x2 x3 = layer x0 x1 x2 x3 := by
  funext i
  obtain ⟨b, s, o, rfl⟩ : ∃ (b : Fin 4) (s : Fin 8192) (o : Fin 1024), i = ix3 b s o := ⟨i 0, i 1, i 2, eq_ix3 i⟩
  have el : ∀ k : Fin 1024, lidx_main_v7 (ix3 b s o) k = ix3 b s k := fun k =>
    funext fun a => Fin.ext (by match a with | ⟨0, _⟩ => rfl | ⟨1, _⟩ => rfl | ⟨2, _⟩ => rfl)
  have er : ∀ k : Fin 1024, ridx_main_v7 (ix3 b s o) k = ix2 o k := fun k =>
    funext fun a => Fin.ext (by match a with | ⟨0, _⟩ => rfl | ⟨1, _⟩ => rfl)
  have e2 : idx_main_v8 (idx_main_v9 (ix3 b s o)) = ix1 o :=
    funext fun a => Fin.ext (by match a with | ⟨0, _⟩ => rfl)
  have e3 : idx_main_v11 (idx_main_v12 (ix3 b s o)) = ix1 o :=
    funext fun a => Fin.ext (by match a with | ⟨0, _⟩ => rfl)
  rw [val_main_v14_apply, val_main_call0_v4_apply, val_main_call0_v3_apply, val_main_cst_3_apply,
    val_main_call0_v2_apply, val_main_call0_v1_apply, val_main_call0_v0_apply, val_main_cst_2_apply,
    val_main_v13_apply, val_main_v10_apply, val_main_v7_apply, val_main_v9_apply, val_main_v8_apply,
    val_main_v12_apply, val_main_v11_apply, e2, e3]
  simp only [val_main_v6_apply, val_main_v4_apply, val_main_v2_apply, val_main_v1_apply, val_main_v0_apply,
    val_main_cst_apply, val_main_v3_apply, val_main_cst_0_apply, val_main_v5_apply, val_main_cst_1_apply, el, er,
    affine_eq_sgn]
  rfl

end Cert.ReferenceIdeal.Hand

end
-- ==== Proof.lean ====
/-
  The binarised linear layer: the kernel's program and the reference compute one function of the four arguments.

  Over the extended reals both programs return, at entry `(b, s, o)`, the sum over the 1024 features `k` of
  `x (b, s, k) · sgn (w (o, k))`, times `scale o`, plus `bias o`, clamped to `[-100, 100]` — `Cert.BinLinear.layer`.
  The kernel's program binarises the weights with a choice of `1` or `-1` by the bit of `w ≥ 0` and tiles the
  [32768, 1024] product over 16 × 2 blocks; the reference binarises with `bit · 2 - 1` and contracts once over the
  whole input. The two binarisations agree bit by bit, each block entry reads exactly the rows and entries its array
  entry depends on, and the two sums are the same sum: no law of the extended reals beyond these is used, so the
  precondition that the inputs are finite is never opened. The idealisation rewrote nothing, so the word-level kernel
  is related to its idealisation by the empty list of conditions. Each program's frame is its run with the result dropped.
-/
import proofs.«176042_j11218454577486_2_alg».proof.Defs
import proofs.«176042_j11218454577486_2_alg».proof.Proof.Gen.Kernel
import proofs.«176042_j11218454577486_2_alg».proof.Proof.Gen.Kernel.Skeleton
import proofs.«176042_j11218454577486_2_alg».proof.Proof.Gen.Kernel.Launch
import proofs.«176042_j11218454577486_2_alg».proof.Proof.Gen.Kernel.Points
import proofs.«176042_j11218454577486_2_alg».proof.Proof.Gen.Kernel.Frame
import proofs.«176042_j11218454577486_2_alg».proof.Proof.Gen.KernelIdeal
import proofs.«176042_j11218454577486_2_alg».proof.Proof.Gen.KernelIdeal.Skeleton
import proofs.«176042_j11218454577486_2_alg».proof.Proof.Gen.KernelIdeal.Launch
import proofs.«176042_j11218454577486_2_alg».proof.Proof.Gen.KernelIdeal.Points
import proofs.«176042_j11218454577486_2_alg».proof.Proof.Gen.KernelIdeal.Frame
import proofs.«176042_j11218454577486_2_alg».proof.Proof.Gen.ReferenceIdeal
import proofs.«176042_j11218454577486_2_alg».proof.Proof.Gen.Pre_finite_inputs
import proofs.«176042_j11218454577486_2_alg».proof.Proof.Gen.ReferenceIdeal.Run
import proofs.«176042_j11218454577486_2_alg».proof.Proof.Gen.ReferenceIdeal.Read
import proofs.«176042_j11218454577486_2_alg».proof.Proof.KernelValue
import proofs.«176042_j11218454577486_2_alg».proof.Proof.RefValue
import Idealize.ShloMosaic.Adequacy
import Idealize.ShloMosaic.Init

noncomputable section

namespace Cert.Proof

open Idealize.ShloMosaic Idealize.ShloMosaic.TcCoe Idealize.SL.Sem Cert.BinLinear

/-- The word-level kernel program runs and leaves its arguments unchanged. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation: nothing to state. -/
theorem preserves : Cert.preserves_Kernel_KernelIdeal := trivial

/-- From memories agreeing on the arguments both programs end with the result array at `layer` of the arguments. -/
theorem algebraic : Cert.algebraic_KernelIdeal_ReferenceIdeal := by
  intro m ρ m' ρ' _ hagree
  refine ⟨fun c => layer (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Hand.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
